-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x200x256 : Shape := ⟨3, ![4096, 200, 256]⟩
abbrev S4096x1x128 : Shape := ⟨3, ![4096, 1, 128]⟩
abbrev S256x128 : Shape := ⟨2, ![256, 128]⟩
abbrev S128 : Shape := ⟨1, ![128]⟩
abbrev S_ : Shape := ⟨0, ![]⟩

class Facts : Prop where
  bcast_S_S4096x200x256 : S_.BroadcastsInDim S4096x200x256 (![] : Fin 0 → Fin S4096x200x256.rank)
  reducesTo_S4096x200x256_S_d0_1_2 : S4096x200x256.ReducesTo [0, 1, 2] S_
  h_S_ : 0 < S_.numel
  bcast_S_S4096x1x128 : S_.BroadcastsInDim S4096x1x128 (![] : Fin 0 → Fin S4096x1x128.rank)
  reducesTo_S4096x1x128_S_d0_1_2 : S4096x1x128.ReducesTo [0, 1, 2] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S256x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S4096x200x256 .f32) (main_arg1 : FVec F S4096x1x128 .f32) (main_arg2 : FVec F S256x128 .f32) (main_arg3 : FVec F S128 .f32) (main_arg4 : FVec F S256x128 .f32) (main_arg5 : FVec F S128 .f32) : IVec S_ 1 :=
  let main_v0 : FVec F S4096x200x256 .f32 := Host.absf main_arg0
  let main_cst : FVec F S_ .f32 := constant S_ .f32 0x7F800000#32
  let main_v1 : FVec F S4096x200x256 .f32 := broadcastInDim S4096x200x256 ![] bcast_S_S4096x200x256 main_cst
  let main_v2 : IVec S4096x200x256 1 := cmpf .olt main_v0 main_v1
  let main_c : IVec S_ 1 := constantI S_ 1 1#1
  let main_v3 : IVec S_ 1 := (fun x v => Host.reduce IntOp.andi x v reducesTo_S4096x200x256_S_d0_1_2 h_S_) main_v2 main_c
  let main_v4 : FVec F S4096x1x128 .f32 := Host.absf main_arg1
  let main_cst_0 : FVec F S_ .f32 := constant S_ .f32 0x7F800000#32
  let main_v5 : FVec F S4096x1x128 .f32 := broadcastInDim S4096x1x128 ![] bcast_S_S4096x1x128 main_cst_0
  let main_v6 : IVec S4096x1x128 1 := cmpf .olt main_v4 main_v5
  let main_c_1 : IVec S_ 1 := constantI S_ 1 1#1
  let main_v7 : IVec S_ 1 := (fun x v => Host.reduce IntOp.andi x v reducesTo_S4096x1x128_S_d0_1_2 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S4096x200x256 : Shape := ⟨3, ![4096, 200, 256]⟩
abbrev S4096x1x128 : Shape := ⟨3, ![4096, 1, 128]⟩
abbrev S256x128 : Shape := ⟨2, ![256, 128]⟩
abbrev S128 : Shape := ⟨1, ![128]⟩
abbrev S256x256 : Shape := ⟨2, ![256, 256]⟩
abbrev S256 : Shape := ⟨1, ![256]⟩
abbrev S4096x128 : Shape := ⟨2, ![4096, 128]⟩
abbrev S4096x1x200 : Shape := ⟨3, ![4096, 1, 200]⟩
abbrev S32x200x256 : Shape := ⟨3, ![32, 200, 256]⟩
abbrev S32x1x128 : Shape := ⟨3, ![32, 1, 128]⟩
abbrev S32x128 : Shape := ⟨2, ![32, 128]⟩
abbrev S32x1x200 : Shape := ⟨3, ![32, 1, 200]⟩
abbrev S6400x256 : Shape := ⟨2, ![6400, 256]⟩
abbrev S1x256 : Shape := ⟨2, ![1, 256]⟩
abbrev S32x200x128 : Shape := ⟨3, ![32, 200, 128]⟩
abbrev S32x200 : Shape := ⟨2, ![32, 200]⟩
abbrev S32 : Shape := ⟨1, ![32]⟩
abbrev S32x1 : Shape := ⟨2, ![32, 1]⟩
abbrev S32x200x1 : Shape := ⟨3, ![32, 200, 1]⟩

abbrev nBuf : Space → Nat
  | .hbm => 10
  | .vmem => 10
  | .smem => 0
  | _ => 0

abbrev bufTy : (tb : Table) → Fin (tcTables nBuf tb) → BufTy
  | .hbm, ⟨0, _⟩ => ⟨S4096x200x256, .f32⟩
  | .hbm, ⟨1, _⟩ => ⟨S4096x1x128, .f32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S256x256, .f32⟩
  | .hbm, ⟨7, _⟩ => ⟨S256, .f32⟩
  | .hbm, ⟨8, _⟩ => ⟨S4096x128, .f32⟩
  | .hbm, ⟨9, _⟩ => ⟨S4096x1x200, .f32⟩
  | .local _ .vmem, ⟨0, _⟩ => ⟨S32x200x256, .f32⟩
  | .local _ .vmem, ⟨1, _⟩ => ⟨S32x200x256, .f32⟩
  | .local _ .vmem, ⟨2, _⟩ => ⟨S32x1x128, .f32⟩
  | .local _ .vmem, ⟨3, _⟩ => ⟨S32x1x128, .f32⟩
  | .local _ .vmem, ⟨4, _⟩ => ⟨S256x256, .f32⟩
  | .local _ .vmem, ⟨5, _⟩ => ⟨S256, .f32⟩
  | .local _ .vmem, ⟨6, _⟩ => ⟨S32x128, .f32⟩
  | .local _ .vmem, ⟨7, _⟩ => ⟨S32x128, .f32⟩
  | .local _ .vmem, ⟨8, _⟩ => ⟨S32x1x200, .f32⟩
  | .local _ .vmem, ⟨9, _⟩ => ⟨S32x1x200, .f32⟩
  | _, _ => ⟨S4096x200x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x200x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1x200 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  concatenates_S256x128_S256x128_S256x256_d1 : Shape.Concatenates [S256x128, S256x128] S256x256 1
  concatenates_S128_S128_S256_d0 : Shape.Concatenates [S128, S128] S256 0
  inb_S32x200x256_S32x200x256_0_0_0 : ∀ a, (![0, 0, 0] : Fin 3 → Nat) a + S32x200x256.size a ≤ S32x200x256.size a
  h_S32x200x256 : 0 < S32x200x256.numel
  bitsLt_bf16_f32 : FTy.bits .bf16 < FTy.bits .f32
  shapeCasts_S32x200x256_S6400x256 : S32x200x256.ShapeCasts S6400x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S6400x256 : S1x256.Broadcasts S6400x256
  shapeCasts_S6400x256_S32x200x256 : S6400x256.ShapeCasts S32x200x256
  slices_S32x200x256_o0_0_0_S32x200x128 : S32x200x256.Slices ![0, 0, 0] S32x200x128
  slices_S32x200x256_o0_0_128_S32x200x128 : S32x200x256.Slices ![0, 0, 128] S32x200x128
  inb_S32x1x128_S32x1x128_0_0_0 : ∀ a, (![0, 0, 0] : Fin 3 → Nat) a + S32x1x128.size a ≤ S32x1x128.size a
  h_S32x1x128 : 0 < S32x1x128.numel
  broadcasts_S32x1x128_S32x200x128 : S32x1x128.Broadcasts S32x200x128
  reduces_S32x200x128_S32x200 : S32x200x128.Reduces [2] S32x200
  reduces_S32x200_S32 : S32x200.Reduces [1] S32
  shapeCasts_S32_S32x1 : S32.ShapeCasts S32x1
  broadcasts_S32x1_S32x200 : S32x1.Broadcasts S32x200
  shapeCasts_S32x200_S32x1x200 : S32x200.ShapeCasts S32x1x200
  inb_S32x1x200_S32x1x200_0_0_0 : ∀ a, (![0, 0, 0] : Fin 3 → Nat) a + S32x1x200.size a ≤ S32x1x200.size a
  h_S32x1x200 : 0 < S32x1x200.numel
  shapeCasts_S32x200_S32x200x1 : S32x200.ShapeCasts S32x200x1
  broadcasts_S32x200x1_S32x200x128 : S32x200x1.Broadcasts S32x200x128
  reduces_S32x200x128_S32x128 : S32x200x128.Reduces [1] S32x128
  inb_S32x128_S32x128_0_0 : ∀ a, (![0, 0] : Fin 2 → Nat) a + S32x128.size a ≤ S32x128.size a
  h_S32x128 : 0 < S32x128.numel
  dot_S6400x256_S256x256_S6400x256_1_0_0_1_n_n_wf : DotDims.WF S6400x256 S256x256 S6400x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x200x256.size a ≤ S4096x200x256.size a
  hwx0_0 : ∀ i : grid0.Coords, EltTy.bits .f32 = 32 ∨ (Rect.block (s := S4096x200x256) S32x200x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1x128.size a ≤ S4096x1x128.size a
  hwx0_1 : ∀ i : grid0.Coords, EltTy.bits .f32 = 32 ∨ (Rect.block (s := S4096x1x128) S32x1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x128.size a ≤ S4096x128.size a
  hwx0_4 : ∀ i : grid0.Coords, EltTy.bits .f32 = 32 ∨ (Rect.block (s := S4096x128) S32x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x1x200.size a ≤ S4096x1x200.size a
  hwx0_5 : ∀ i : grid0.Coords, EltTy.bits .f32 = 32 ∨ (Rect.block (s := S4096x1x200) S32x1x200.size (cc0_transform_5 i) (hinb0_5 i)).WholeWords (EltTy.packing .f32)

variable [Facts₀]

def dot_S6400x256_S256x256_S6400x256_1_0_0_1_n_n : DotDims S6400x256 S256x256 S6400x256 where
  lhsContracting := [1]
  rhsContracting := [0]
  lhsNonContracting := [0]
  rhsNonContracting := [1]
  lhsBatch := []
  rhsBatch := []
  wf := dot_S6400x256_S256x256_S6400x256_1_0_0_1_n_n_wf

abbrev win0_0 : Pipeline.Window sig grid0 :=
  Pipeline.Window.ofSpec (Memref.whole main_arg0) S32x200x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S32x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S32x1x200.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x200x256 : Shape := ⟨3, ![4096, 200, 256]⟩
abbrev S4096x1x128 : Shape := ⟨3, ![4096, 1, 128]⟩
abbrev S256x128 : Shape := ⟨2, ![256, 128]⟩
abbrev S128 : Shape := ⟨1, ![128]⟩
abbrev S4096x200x128 : Shape := ⟨3, ![4096, 200, 128]⟩
abbrev S1x1x128 : Shape := ⟨3, ![1, 1, 128]⟩
abbrev S4096x1x200 : Shape := ⟨3, ![4096, 1, 200]⟩
abbrev S_ : Shape := ⟨0, ![]⟩
abbrev S4096x1 : Shape := ⟨2, ![4096, 1]⟩
abbrev S4096x1x1 : Shape := ⟨3, ![4096, 1, 1]⟩
abbrev S4096x200x1 : Shape := ⟨3, ![4096, 200, 1]⟩
abbrev S4096x128 : Shape := ⟨2, ![4096, 128]⟩

abbrev nBuf : Space → Nat
  | .hbm => 37
  | .vmem => 0
  | .smem => 0
  | _ => 0

abbrev bufTy : (tb : Table) → Fin (tcTables nBuf tb) → BufTy
  | .hbm, ⟨0, _⟩ => ⟨S4096x200x256, .f32⟩
  | .hbm, ⟨1, _⟩ => ⟨S4096x1x128, .f32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S4096x200x128, .f32⟩
  | .hbm, ⟨7, _⟩ => ⟨S1x1x128, .f32⟩
  | .hbm, ⟨8, _⟩ => ⟨S4096x200x128, .f32⟩
  | .hbm, ⟨9, _⟩ => ⟨S4096x200x128, .f32⟩
  | .hbm, ⟨10, _⟩ => ⟨S4096x200x128, .f32⟩
  | .hbm, ⟨11, _⟩ => ⟨S1x1x128, .f32⟩
  | .hbm, ⟨12, _⟩ => ⟨S4096x200x128, .f32⟩
  | .hbm, ⟨13, _⟩ => ⟨S4096x200x128, .f32⟩
  | .hbm, ⟨14, _⟩ => ⟨S4096x1x200, .f32⟩
  | .hbm, ⟨15, _⟩ => ⟨S_, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1x1, .f32⟩
  | .hbm, ⟨21, _⟩ => ⟨S4096x1x200, .f32⟩
  | .hbm, ⟨22, _⟩ => ⟨S4096x1x200, .f32⟩
  | .hbm, ⟨23, _⟩ => ⟨S4096x1x200, .f32⟩
  | .hbm, ⟨24, _⟩ => ⟨S_, .f32⟩
  | .hbm, ⟨25, _⟩ => ⟨S4096x1, .f32⟩
  | .hbm, ⟨26, _⟩ => ⟨S4096x1x1, .f32⟩
  | .hbm, ⟨27, _⟩ => ⟨S4096x1x200, .f32⟩
  | .hbm, ⟨28, _⟩ => ⟨S4096x1x200, .f32⟩
  | .hbm, ⟨29, _⟩ => ⟨S_, .f32⟩
  | .hbm, ⟨30, _⟩ => ⟨S4096x1x200, .f32⟩
  | .hbm, ⟨31, _⟩ => ⟨S4096x1x200, .f32⟩
  | .hbm, ⟨32, _⟩ => ⟨S4096x200x1, .f32⟩
  | .hbm, ⟨33, _⟩ => ⟨S4096x200x128, .f32⟩
  | .hbm, ⟨34, _⟩ => ⟨S4096x200x128, .f32⟩
  | .hbm, ⟨35, _⟩ => ⟨S_, .f32⟩
  | .hbm, ⟨36, _⟩ => ⟨S4096x128, .f32⟩
  | _, _ => ⟨S4096x200x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S4096x200x128_0_1_2 : S1x1x128.BroadcastsInDim S4096x200x128 (![0, 1, 2] : Fin 3 → Fin S4096x200x128.rank)
  reducesTo_S4096x1x200_S4096x1_d2 : S4096x1x200.ReducesTo [2] S4096x1
  h_S_ : 0 < S_.numel
  bcast_S_S4096x1 : S_.BroadcastsInDim S4096x1 (![] : Fin 0 → Fin S4096x1.rank)
  bcast_S4096x1_S4096x1x1_0_1 : S4096x1.BroadcastsInDim S4096x1x1 (![0, 1] : Fin 2 → Fin S4096x1x1.rank)
  bcast_S4096x1x1_S4096x1x200_0_1_2 : S4096x1x1.BroadcastsInDim S4096x1x200 (![0, 1, 2] : Fin 3 → Fin S4096x1x200.rank)
  bcast_S_S4096x1x200 : S_.BroadcastsInDim S4096x1x200 (![] : Fin 0 → Fin S4096x1x200.rank)
  transposes_S4096x1x200_S4096x200x1_0_2_1 : S4096x1x200.Transposes [0, 2, 1] S4096x200x1
  bcast_S4096x200x1_S4096x200x128_0_1_2 : S4096x200x1.BroadcastsInDim S4096x200x128 (![0, 1, 2] : Fin 3 → Fin S4096x200x128.rank)
  reducesTo_S4096x200x128_S4096x128_d1 : S4096x200x128.ReducesTo [1] S4096x128
  dot_S4096x200x256_S256x128_S4096x200x128_2_0_01_1_n_n_wf : DotDims.WF S4096x200x256 S256x128 S4096x200x128 [2] [0] [0, 1] [1] [] []
  dot_S4096x1x128_S4096x200x128_S4096x1x200_2_2_1_1_0_0_wf : DotDims.WF S4096x1x128 S4096x200x128 S4096x1x200 [2] [2] [1] [1] [0] [0]

variable [Facts₀]

def dot_S4096x200x256_S256x128_S4096x200x128_2_0_01_1_n_n : DotDims S4096x200x256 S256x128 S4096x200x128 where
  lhsContracting := [2]
  rhsContracting := [0]
  lhsNonContracting := [0, 1]
  rhsNonContracting := [1]
  lhsBatch := []
  rhsBatch := []
  wf := dot_S4096x200x256_S256x128_S4096x200x128_2_0_01_1_n_n_wf
def dot_S4096x1x128_S4096x200x128_S4096x1x200_2_2_1_1_0_0 : DotDims S4096x1x128 S4096x200x128 S4096x1x200 where
  lhsContracting := [2]
  rhsContracting := [2]
  lhsNonContracting := [1]
  rhsNonContracting := [1]
  lhsBatch := [0]
  rhsBatch := [0]
  wf := dot_S4096x1x128_S4096x200x128_S4096x1x200_2_2_1_1_0_0_wf

class Facts : Prop extends Facts₀ where

variable [Facts]
-- ==== Proof.FusedWeights.lean ====
/-
  The fused weights and bias as the kernel's region finds them.

  Before the region the program lays the key and value weight matrices side by side into one 256 x 256 matrix
  (columns 0..127 the key weights, columns 128..255 the value weights) and the two biases end to end into one
  256-entry row. Read at an index, the left half is the key argument at the same coordinates and the right half the
  value argument at the column less 128.
-/
import proofs.«108167_j8564164788839_2_alg».proof.Proof.Gen.KernelIdeal.Frame
import Idealize.ShloMosaic.Lib.Pipeline.Value
import Idealize.ShloMosaic.Lib.ValueIdx
import Idealize.ShloMosaic.Lib.StableHlo.Run

noncomputable section

namespace Cert.Attention.Block

open Cert.KernelIdeal Cert.KernelIdeal.Gen Idealize.ShloMosaic Idealize.ShloMosaic.TcCoe Idealize.SL.Sem Idealize.ShloMosaic.ValueIdx Idealize.ShloMosaic.StableHlo

variable (m : (ℓ : Loc nD τ sig) → Buf (Elt Ideal) ℓ)

/-- The fused weight matrix is the two weight arguments side by side. -/
theorem fusedW (c : Dev nD) :
    (V m c main_v0 : S256x256.Idx → EReal)
      = concatenate S256x256 1 [⟨S256x128, m ((c : Thread nD τ).loc main_arg2)⟩, ⟨S256x128, m ((c : Thread nD τ).loc main_arg4)⟩]
          concatenates_S256x128_S256x128_S256x256_d1 := by
  dsimp only [Gen.V, Gen.hostOps0]
  after_results

/-- The fused bias is the two bias arguments end to end. -/
theorem fusedB (c : Dev nD) :
    (V m c main_v1 : S256.Idx → EReal)
      = concatenate S256 0 [⟨S128, m ((c : Thread nD τ).loc main_arg3)⟩, ⟨S128, m ((c : Thread nD τ).loc main_arg5)⟩]
          concatenates_S128_S128_S256_d0 := by
  dsimp only [Gen.V, Gen.hostOps0]
  after_results

/-- Column d < 128 of the fused weights is column d of the key weights. -/
theorem fusedW_key (c : Dev nD) (k : Fin 256) (d : Fin 128) :
    (V m c main_v0 : S256x256.Idx → EReal) (ix2 k (Fin.castLE (by decide) d))
      = (m ((c : Thread nD τ).loc main_arg2) : S256x128.Idx → EReal) (ix2 k d) := by
  rw [fusedW]
  exact concatenate_pair_apply_left (t := S256x256) (s₁ := S256x128) (s₂ := S256x128) (1 : Fin 2)
    (m ((c : Thread nD τ).loc main_arg2)) (m ((c : Thread nD τ).loc main_arg4)) concatenates_S256x128_S256x128_S256x256_d1
    (ix2 k (Fin.castLE (by decide) d)) rfl (ix2 k d)
    (fun b => match b with | ⟨0, _⟩ => rfl | ⟨1, _⟩ => rfl)

/-- Column 128 + d of the fused weights is column d of the value weights. -/
theorem fusedW_value (c : Dev nD) (k : Fin 256) (d : Fin 128) :
    (V m c main_v0 : S256x256.Idx → EReal) (ix2 k (⟨128 + d.val, by omega⟩ : Fin 256))
      = (m ((c : Thread nD τ).loc main_arg4) : S256x128.Idx → EReal) (ix2 k d) := by
  rw [fusedW]
  exact concatenate_pair_apply_right (t := S256x256) (s₁ := S256x128) (s₂ := S256x128) (1 : Fin 2)
    (m ((c : Thread nD τ).loc main_arg2)) (m ((c : Thread nD τ).loc main_arg4)) concatenates_S256x128_S256x128_S256x256_d1
    (ix2 k (⟨128 + d.val, by omega⟩ : Fin 256)) rfl rfl (ix2 k d)
    (fun b hb => match b, hb with | ⟨0, _⟩, _ => rfl | ⟨1, _⟩, hb => absurd rfl hb)
    (by show d.val + 128 = 128 + d.val; omega)

/-- Entry d < 128 of the fused bias is entry d of the key bias. -/
theorem fusedB_key (c : Dev nD) (d : Fin 128) :
    (V m c main_v1 : S256.Idx → EReal) (ix1 (Fin.castLE (by decide) d))
      = (m ((c : Thread nD τ).loc main_arg3) : S128.Idx → EReal) (ix1 d) := by
  rw [fusedB]
  exact concatenate_pair_apply_left (t := S256) (s₁ := S128) (s₂ := S128) (0 : Fin 1)
    (m ((c : Thread nD τ).loc main_arg3)) (m ((c : Thread nD τ).loc main_arg5)) concatenates_S128_S128_S256_d0
    (ix1 (Fin.castLE (by decide) d)) rfl (ix1 d)
    (fun b => match b with | ⟨0, _⟩ => rfl)

/-- Entry 128 + d of the fused bias is entry d of the value bias. -/
theorem fusedB_value (c : Dev nD) (d : Fin 128) :
    (V m c main_v1 : S256.Idx → EReal) (ix1 (⟨128 + d.val, by omega⟩ : Fin 256))
      = (m ((c : Thread nD τ).loc main_arg5) : S128.Idx → EReal) (ix1 d) := by
  rw [fusedB]
  exact concatenate_pair_apply_right (t := S256) (s₁ := S128) (s₂ := S128) (0 : Fin 1)
    (m ((c : Thread nD τ).loc main_arg3)) (m ((c : Thread nD τ).loc main_arg5)) concatenates_S128_S128_S256_d0
    (ix1 (⟨128 + d.val, by omega⟩ : Fin 256)) rfl rfl (ix1 d)
    (fun b hb => match b, hb with | ⟨0, _⟩, hb => absurd rfl hb)
    (by show d.val + 128 = 128 + d.val; omega)

end Cert.Attention.Block

end
-- ==== Proof.BlockProj.lean ====
/-
  The fused projection of one block of 32 batch rows.

  The block's 32 x 200 tokens are laid out as the 6400 rows of one matrix (token s of row b is matrix row
  200 b + s), multiplied by the 256 x 256 matrix that holds the key weights in its first 128 columns and the value
  weights in its last 128, and the 256-entry bias row is added to every row of the product; the result is laid
  back out as [32, 200, 256]. Read at (b, s, j) on the extended reals this is the inner product of token (b, s)
  with column j of the weights, plus entry j of the bias: the rounding of both operands to bf16 is the identity
  there, and the product starts from the zero word.
-/
import proofs.«108167_j8564164788839_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.Attention.Block

open Cert.KernelIdeal Cert.KernelIdeal.Gen Idealize.ShloMosaic Idealize.ShloMosaic.ValueIdx

/-- Operand indices of the block's one matrix product, [6400, 256] x [256, 256]: at output (r, c) and contraction
    coordinate q the left operand is read at (r, q) and the right at (q, c). -/
theorem dotL0 (i : S6400x256.Idx) (q : dot_S6400x256_S256x256_S6400x256_1_0_0_1_n_n.contr.Idx) :
    (dot_S6400x256_S256x256_S6400x256_1_0_0_1_n_n.lhsIdx i q 0).val = (i 0).val := by
  unfold DotDims.lhsIdx
  rw [dif_neg (show ¬(0 : Fin S6400x256.rank) ∈ dot_S6400x256_S256x256_S6400x256_1_0_0_1_n_n.lhsBatch by decide),
    dif_pos (show (0 : Fin S6400x256.rank) ∈ dot_S6400x256_S256x256_S6400x256_1_0_0_1_n_n.lhsNonContracting by decide)]
  rfl
theorem dotL1 (i : S6400x256.Idx) (q : dot_S6400x256_S256x256_S6400x256_1_0_0_1_n_n.contr.Idx) :
    (dot_S6400x256_S256x256_S6400x256_1_0_0_1_n_n.lhsIdx i q 1).val = (q ⟨0, by decide⟩).val :=
  dot_S6400x256_S256x256_S6400x256_1_0_0_1_n_n.lhsIdx_val_of_single rfl i q
theorem dotR0 (i : S6400x256.Idx) (q : dot_S6400x256_S256x256_S6400x256_1_0_0_1_n_n.contr.Idx) :
    (dot_S6400x256_S256x256_S6400x256_1_0_0_1_n_n.rhsIdx i q 0).val = (q ⟨0, by decide⟩).val :=
  dot_S6400x256_S256x256_S6400x256_1_0_0_1_n_n.rhsIdx_val_of_single rfl i q
theorem dotR1 (i : S6400x256.Idx) (q : dot_S6400x256_S256x256_S6400x256_1_0_0_1_n_n.contr.Idx) :
    (dot_S6400x256_S256x256_S6400x256_1_0_0_1_n_n.rhsIdx i q 1).val = (i 1).val := by
  unfold DotDims.rhsIdx
  rw [dif_neg (show ¬(1 : Fin S256x256.rank) ∈ dot_S6400x256_S256x256_S6400x256_1_0_0_1_n_n.rhsBatch by decide),
    dif_pos (show (1 : Fin S256x256.rank) ∈ dot_S6400x256_S256x256_S6400x256_1_0_0_1_n_n.rhsNonContracting by decide)]
  rfl

/-- Entry (b, s, j) of the block's projection: the inner product of token (b, s) with column j of the fused
    weights, plus entry j of the fused bias. -/
theorem proj_apply (x0 : Vec Ideal S32x200x256 .f32) (w : Vec Ideal S256x256 .f32) (bb : Vec Ideal S256 .f32)
    (b : Fin 32) (s : Fin 200) (j : Fin 256) :
    k0_pay1 (F := Ideal) x0 w bb (ix3 b s j) = (∑ k : Fin 256, x0 (ix3 b s k) * w (ix2 k j)) + bb (ix1 j) := by
  have hb := b.isLt
  have hs := s.isLt
  unfold k0_pay1
  refine (shapeCast_apply _ _ (ix3 b s j) (ix2 (⟨b.val * 200 + s.val, by omega⟩ : Fin 6400) j) (by
    rw [Shape.rowMajor_val_two, Shape.rowMajor_val_three]; rfl)).trans ?_
  refine (addf_apply _ _ _).trans (congrArg₂ (· + ·) ?_ ?_)
  · refine (Ideal.matmul_constant_zero_apply _ none _ _ _).trans ?_
    refine (Equiv.sum_comp (contrEquiv1 dot_S6400x256_S256x256_S6400x256_1_0_0_1_n_n 256 rfl rfl).symm _).symm.trans ?_
    refine Finset.sum_congr rfl fun k _ => ?_
    have hk := contrEquiv1_symm_val dot_S6400x256_S256x256_S6400x256_1_0_0_1_n_n 256 rfl rfl k
    have el : dot_S6400x256_S256x256_S6400x256_1_0_0_1_n_n.lhsIdx (ix2 (⟨b.val * 200 + s.val, by omega⟩ : Fin 6400) j)
        ((contrEquiv1 dot_S6400x256_S256x256_S6400x256_1_0_0_1_n_n 256 rfl rfl).symm k) = ix2 (⟨b.val * 200 + s.val, by omega⟩ : Fin 6400) k :=
      funext fun a => Fin.ext (by
        match a with
        | ⟨0, _⟩ => exact dotL0 _ _
        | ⟨1, _⟩ => exact (dotL1 _ _).trans hk)
    have er : dot_S6400x256_S256x256_S6400x256_1_0_0_1_n_n.rhsIdx (ix2 (⟨b.val * 200 + s.val, by omega⟩ : Fin 6400) j)
        ((contrEquiv1 dot_S6400x256_S256x256_S6400x256_1_0_0_1_n_n 256 rfl rfl).symm k) = ix2 k j :=
      funext fun a => Fin.ext (by
        match a with
        | ⟨0, _⟩ => exact (dotR0 _ _).trans hk
        | ⟨1, _⟩ => exact dotR1 _ _)
    rw [el, er]
    refine congrArg₂ (· * ·) ?_ ?_
    · exact shapeCast_apply _ _ _ (ix3 b s k) (by
        rw [Shape.rowMajor_val_two, Shape.rowMajor_val_three]; rfl)
    · show (shapeCast S256x256 w shapeCasts_S256x256_S256x256) (ix2 k j) = _
      rw [shapeCast_self]
  · refine (broadcastTo_apply _ _ _ (ix2 (0 : Fin 1) j) (fun a => match a with
      | ⟨0, _⟩ => by show 0 = if (1 : Nat) = 1 then 0 else _; rw [if_pos rfl]
      | ⟨1, _⟩ => by show j.val = if (256 : Nat) = 1 then 0 else j.val; rw [if_neg (by decide)])).trans ?_
    refine (shapeCast_apply _ _ (ix2 (0 : Fin 1) j) (ix1 j) (by
      rw [Shape.rowMajor_val_one, Shape.rowMajor_val_two]; show j.val = 0 * 256 + j.val; omega)).trans ?_
    rw [shapeCast_self]

end Cert.Attention.Block

end
-- ==== Proof.RowSpec.lean ====
/-
  Single-query attention, one batch row at a time, on the extended reals.

  A batch row carries a 200 x 256 matrix `xr` of tokens and one query `q` of 128 entries. With a weight
  matrix `W` (256 x 128) and a bias `b` (128 entries) the row is projected to `proj xr W b`, entry (s, d)
  being `(sum over k of xr s k * W k d) + b d`. The score of token `s` is the inner product of the query
  with the key projection of the token; the scores go through a softmax taken against their maximum
  (the maximum folded from the word of minus infinity, the exponentials divided by their sum), and the
  result is multiplied by a fixed f32 scale. The row's output, entry `d`, is the sum over the tokens of
  the value projection at (s, d) times the token's scaled weight.

  Everything is stated over functions of plain finite coordinates, so that the same text reads a row of
  a whole [4096, ...] array and a row of one [32, ...] block of it. The two float words that occur (the scale and
  minus infinity) stay words: nothing below depends on which extended reals they denote.
-/
import Idealize.ShloMosaic.PureOps.Ideal
import Idealize.ShloMosaic.Lib.ValueIdx

noncomputable section

namespace Cert.Attention

open Idealize.ShloMosaic Idealize.ShloMosaic.ValueIdx

/-- The scale applied after the softmax, as the f32 word both programs carry. -/
def scale : EReal := Ideal.ofBits .f32 0x3DB504F3#32

/-- The word of minus infinity, from which a maximum over the tokens is folded. -/
def least : EReal := Ideal.ofBits .f32 0xFF800000#32

/-- A row's projection: entry (s, d) is the inner product of token `s` with column `d` of `W`, plus `b d`. -/
def proj (xr : Fin 200 → Fin 256 → EReal) (W : Fin 256 → Fin 128 → EReal) (b : Fin 128 → EReal)
    (s : Fin 200) (d : Fin 128) : EReal :=
  (∑ k : Fin 256, xr s k * W k d) + b d

/-- The score of token `s`: the inner product of the query with the token's key projection. -/
def score (xr : Fin 200 → Fin 256 → EReal) (q : Fin 128 → EReal) (W : Fin 256 → Fin 128 → EReal)
    (b : Fin 128 → EReal) (s : Fin 200) : EReal :=
  ∑ d : Fin 128, q d * proj xr W b s d

/-- The largest of 200 scores, folded from minus infinity. -/
def top (sc : Fin 200 → EReal) : EReal := (Finset.univ : Finset (Fin 200)).fold max least sc

/-- The exponential of a score's distance below the largest one. -/
def lift (sc : Fin 200 → EReal) (s : Fin 200) : EReal := Ideal.exp (sc s - top sc)

/-- The softmax weight of token `s` among 200 scores, times the scale. -/
def weight (sc : Fin 200 → EReal) (s : Fin 200) : EReal :=
  Ideal.div (lift sc s) (∑ s' : Fin 200, lift sc s') * scale

/-- A row's attention weights: the scaled softmax of its scores. -/
def atten (xr : Fin 200 → Fin 256 → EReal) (q : Fin 128 → EReal) (Wk : Fin 256 → Fin 128 → EReal)
    (bk : Fin 128 → EReal) (s : Fin 200) : EReal :=
  weight (score xr q Wk bk) s

/-- A row's output: entry `d` sums, over the tokens, the value projection at (s, d) times the token's weight. -/
def output (xr : Fin 200 → Fin 256 → EReal) (q : Fin 128 → EReal) (Wk : Fin 256 → Fin 128 → EReal)
    (bk : Fin 128 → EReal) (Wv : Fin 256 → Fin 128 → EReal) (bv : Fin 128 → EReal) (d : Fin 128) : EReal :=
  ∑ s : Fin 200, proj xr Wv bv s d * atten xr q Wk bk s

/-- Folding a maximum from a value never goes below that value, so taking the maximum with it again changes nothing. -/
theorem max_least_top (sc : Fin 200 → EReal) : max least (top sc) = top sc :=
  max_eq_right ((Finset.le_fold_max least).mpr (Or.inl le_rfl))

/-! ## The whole arrays -/

/-- Row `p` of the token array. -/
def rowX (x : (⟨3, ![4096, 200, 256]⟩ : Shape).Idx → EReal) (p : Fin 4096) : Fin 200 → Fin 256 → EReal :=
  fun s k => x (ix3 p s k)

/-- Row `p` of the query array (its middle axis has one entry). -/
def rowQ (Q : (⟨3, ![4096, 1, 128]⟩ : Shape).Idx → EReal) (p : Fin 4096) : Fin 128 → EReal :=
  fun d => Q (ix3 p 0 d)

/-- A weight array by its two coordinates. -/
def mat (W : (⟨2, ![256, 128]⟩ : Shape).Idx → EReal) : Fin 256 → Fin 128 → EReal := fun k d => W (ix2 k d)

/-- A bias array by its coordinate. -/
def vec (b : (⟨1, ![128]⟩ : Shape).Idx → EReal) : Fin 128 → EReal := fun d => b (ix1 d)

/-- The attention weights of every row, as a [4096, 1, 200] array. -/
def attenArr (x : (⟨3, ![4096, 200, 256]⟩ : Shape).Idx → EReal) (Q : (⟨3, ![4096, 1, 128]⟩ : Shape).Idx → EReal)
    (Wk : (⟨2, ![256, 128]⟩ : Shape).Idx → EReal) (bk : (⟨1, ![128]⟩ : Shape).Idx → EReal) :
    (⟨3, ![4096, 1, 200]⟩ : Shape).Idx → EReal :=
  fun i => atten (rowX x (i 0)) (rowQ Q (i 0)) (mat Wk) (vec bk) (i 2)

/-- The outputs of every row, as a [4096, 128] array. -/
def outArr (x : (⟨3, ![4096, 200, 256]⟩ : Shape).Idx → EReal) (Q : (⟨3, ![4096, 1, 128]⟩ : Shape).Idx → EReal)
    (Wk : (⟨2, ![256, 128]⟩ : Shape).Idx → EReal) (bk : (⟨1, ![128]⟩ : Shape).Idx → EReal)
    (Wv : (⟨2, ![256, 128]⟩ : Shape).Idx → EReal) (bv : (⟨1, ![128]⟩ : Shape).Idx → EReal) :
    (⟨2, ![4096, 128]⟩ : Shape).Idx → EReal :=
  fun i => output (rowX x (i 0)) (rowQ Q (i 0)) (mat Wk) (vec bk) (mat Wv) (vec bv) (i 1)

end Cert.Attention

end
-- ==== Proof.BlockSoftmax.lean ====
/-
  The attention weights of one block of 32 batch rows.

  From the block's projection `kv` (its first 128 lanes are the keys) and the block's 32 queries, the score of
  token s of row b is the sum over the 128 lanes of the query's entry times the key's entry. Along each row the
  scores' maximum is folded from minus infinity, every score is taken below that maximum and exponentiated, the
  exponentials are divided by their sum along the row, and the quotient is multiplied by the scale. Read at
  (b, s) this is the specification's `weight` of row b's 200 scores: the row-wise maximum and sum are each one
  value per row, written back along the row through a [32] -> [32, 1] -> [32, 200] relayout.
-/
import proofs.«108167_j8564164788839_2_alg».proof.Proof.Gen.KernelIdeal.Skeleton
import proofs.«108167_j8564164788839_2_alg».proof.Proof.RowSpec
import Idealize.ShloMosaic.Lib.Pipeline.Value
import Idealize.ShloMosaic.Lib.ValueIdx
import Idealize.ShloMosaic.PureOps.Ideal.Laws

noncomputable section

namespace Cert.Attention.Block

open Cert.KernelIdeal Cert.KernelIdeal.Gen Idealize.ShloMosaic Idealize.ShloMosaic.ValueIdx

/-- The score of token (b, s): the sum over the lanes d of the query's entry (b, 0, d) times the projection's entry
    (b, s, d), the projection's first 128 lanes being the keys. -/
theorem scores_apply (kv : FVec Ideal S32x200x256 .f32) (q : Vec Ideal S32x1x128 .f32) (b : Fin 32) (s : Fin 200) :
    multiReduction .add [2] S32x200 (mulf (broadcastTo S32x200x128 q broadcasts_S32x1x128_S32x200x128)
      (extractStridedSlice S32x200x128 ![0, 0, 0] kv slices_S32x200x256_o0_0_0_S32x200x128)) 0x00000000#32
      reduces_S32x200x128_S32x200 (.inl rfl) rfl (ix2 b s)
    = ∑ d : Fin 128, q (ix3 b 0 d) * kv (ix3 b s (Fin.castLE (by decide) d)) := by
  refine (Ideal.multiReduction_add_single _ _ reduces_S32x200x128_S32x200 _ _ (ix2 b s)).trans ?_
  refine Finset.sum_congr rfl fun (d : Fin 128) _ => ?_
  have hl : reduces_S32x200x128_S32x200.lift (ix2 b s) d = ix3 b s d :=
    funext fun a => Fin.ext (by match a with | ⟨0, _⟩ => rfl | ⟨1, _⟩ => rfl | ⟨2, _⟩ => rfl)
  rw [hl]
  refine (mulf_apply _ _ _).trans (congrArg₂ (· * ·) ?_ ?_)
  · exact broadcastTo_apply _ _ _ (ix3 b (0 : Fin 1) d) (fun a => match a with
      | ⟨0, _⟩ => by show b.val = if (32 : Nat) = 1 then 0 else b.val; rw [if_neg (by decide)]
      | ⟨1, _⟩ => by show 0 = if (1 : Nat) = 1 then 0 else s.val; rw [if_pos rfl]
      | ⟨2, _⟩ => by show d.val = if (128 : Nat) = 1 then 0 else d.val; rw [if_neg (by decide)])
  · exact extractStridedSlice_apply _ _ _ _ (ix3 b s (Fin.castLE (by decide) d)) (fun a => match a with
      | ⟨0, _⟩ => by show b.val = 0 + b.val; omega
      | ⟨1, _⟩ => by show s.val = 0 + s.val; omega
      | ⟨2, _⟩ => by show d.val = 0 + d.val; omega)

/-- A row's largest entry, written back along the row. -/
abbrev rowMaxB (sv : FVec Ideal S32x200 .f32) : FVec Ideal S32x200 .f32 :=
  broadcastTo S32x200 (shapeCast S32x1 (multiReduction .maximumf [1] S32 sv 0xFF800000#32 reduces_S32x200_S32 (.inl rfl) rfl)
    shapeCasts_S32_S32x1) broadcasts_S32x1_S32x200

/-- A row's sum, written back along the row. -/
abbrev rowSumB (ev : FVec Ideal S32x200 .f32) : FVec Ideal S32x200 .f32 :=
  broadcastTo S32x200 (shapeCast S32x1 (multiReduction .add [1] S32 ev 0x00000000#32 reduces_S32x200_S32 (.inl rfl) rfl)
    shapeCasts_S32_S32x1) broadcasts_S32x1_S32x200

/-- One value per row, laid out as a column and repeated along the row, reads at (b, s) the value of row b. -/
theorem col_apply (v : FVec Ideal S32 .f32) (b : Fin 32) (s : Fin 200) :
    broadcastTo S32x200 (shapeCast S32x1 v shapeCasts_S32_S32x1) broadcasts_S32x1_S32x200 (ix2 b s) = v (ix1 b) := by
  refine (broadcastTo_apply _ _ _ (ix2 b (0 : Fin 1)) (fun a => match a with
      | ⟨0, _⟩ => by show b.val = if (32 : Nat) = 1 then 0 else b.val; rw [if_neg (by decide)]
      | ⟨1, _⟩ => by show 0 = if (1 : Nat) = 1 then 0 else s.val; rw [if_pos rfl])).trans ?_
  exact shapeCast_apply _ _ (ix2 b (0 : Fin 1)) (ix1 b) (by
    rw [Shape.rowMajor_val_one, Shape.rowMajor_val_two]; show b.val = b.val * 1 + 0; omega)

/-- The row maximum at (b, s) is the largest of row b's entries, folded from minus infinity. -/
theorem rowMaxB_apply (sv : FVec Ideal S32x200 .f32) (b : Fin 32) (s : Fin 200) :
    rowMaxB sv (ix2 b s) = top (fun s' => sv (ix2 b s')) := by
  refine (col_apply _ b s).trans ?_
  refine (Ideal.multiReduction_maximumf_single sv _ reduces_S32x200_S32 _ _ (ix1 b)).trans ?_
  unfold top least
  exact congrArg (fun f => (Finset.univ : Finset (Fin 200)).fold max (Ideal.ofBits .f32 0xFF800000#32) f)
    (funext fun s' => congrArg sv (funext fun a => Fin.ext (by match a with | ⟨0, _⟩ => rfl | ⟨1, _⟩ => rfl)))

/-- The row sum at (b, s) is the sum of row b's entries. -/
theorem rowSumB_apply (ev : FVec Ideal S32x200 .f32) (b : Fin 32) (s : Fin 200) :
    rowSumB ev (ix2 b s) = ∑ s' : Fin 200, ev (ix2 b s') := by
  refine (col_apply _ b s).trans ?_
  refine (Ideal.multiReduction_add_single ev _ reduces_S32x200_S32 _ _ (ix1 b)).trans ?_
  exact Finset.sum_congr rfl fun s' _ =>
    congrArg ev (funext fun a => Fin.ext (by match a with | ⟨0, _⟩ => rfl | ⟨1, _⟩ => rfl))

/-- The scaled softmax along the rows, at (b, s): the specification's weight of row b's entries. -/
theorem softmax_apply (sv : FVec Ideal S32x200 .f32) (b : Fin 32) (s : Fin 200) :
    mulf (divf (exp (subf sv (rowMaxB sv))) (rowSumB (exp (subf sv (rowMaxB sv)))))
      (broadcast S32x200 (Scalar.ofBits (F := Ideal) .f32 0x3DB504F3#32)) (ix2 b s)
    = weight (fun s' => sv (ix2 b s')) s := by
  show Ideal.div (Ideal.exp (sv (ix2 b s) - rowMaxB sv (ix2 b s))) (rowSumB (exp (subf sv (rowMaxB sv))) (ix2 b s))
      * Ideal.ofBits .f32 0x3DB504F3#32 = _
  rw [rowSumB_apply, rowMaxB_apply]
  unfold weight lift scale
  refine congrArg (fun z => Ideal.div _ z * _) (Finset.sum_congr rfl fun s' _ => ?_)
  show Ideal.exp (sv (ix2 b s') - rowMaxB sv (ix2 b s')) = _
  rw [rowMaxB_apply]

/-- The block's attention weights at (b, s): the weight, among row b's 200 scores, of token s. -/
theorem atten_apply (x0 : Vec Ideal S32x200x256 .f32) (w : Vec Ideal S256x256 .f32) (bb : Vec Ideal S256 .f32)
    (q : Vec Ideal S32x1x128 .f32) (b : Fin 32) (s : Fin 200) :
    k0_pay2 (F := Ideal) x0 w bb q (ix2 b s)
      = weight (fun s' => ∑ d : Fin 128, q (ix3 b 0 d) * k0_pay1 (F := Ideal) x0 w bb (ix3 b s' (Fin.castLE (by decide) d))) s := by
  unfold k0_pay2
  refine (softmax_apply _ b s).trans ?_
  exact congrArg (fun f => weight f s) (funext fun s' => scores_apply _ q b s')

end Cert.Attention.Block

end
-- ==== Proof.BlockOutput.lean ====
/-
  The output of one block of 32 batch rows.

  The last 128 lanes of the block's projection are the values. Each token's attention weight is laid out as a
  [32, 200, 1] column and repeated over the 128 lanes, multiplied into the values, and the products are summed
  over the 200 tokens. Read at (b, d) this is the sum over the tokens s of the projection's entry (b, s, 128 + d)
  times the weight of token s in row b.
-/
import proofs.«108167_j8564164788839_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.Attention.Block

open Cert.KernelIdeal Cert.KernelIdeal.Gen Idealize.ShloMosaic Idealize.ShloMosaic.ValueIdx

/-- Entry (b, d) of the block's output: the values of row b, lane d, summed over the tokens with the row's weights. -/
theorem out_apply (x0 : Vec Ideal S32x200x256 .f32) (w : Vec Ideal S256x256 .f32) (bb : Vec Ideal S256 .f32)
    (q : Vec Ideal S32x1x128 .f32) (b : Fin 32) (d : Fin 128) :
    k0_pay4 (F := Ideal) x0 w bb q (ix2 b d)
      = ∑ s : Fin 200, k0_pay1 (F := Ideal) x0 w bb (ix3 b s (⟨128 + d.val, by omega⟩ : Fin 256)) * k0_pay2 (F := Ideal) x0 w bb q (ix2 b s) := by
  have hd := d.isLt
  unfold k0_pay4
  refine (Ideal.multiReduction_add_single _ _ reduces_S32x200x128_S32x128 _ _ (ix2 b d)).trans ?_
  refine Finset.sum_congr rfl fun (s : Fin 200) _ => ?_
  have hl : reduces_S32x200x128_S32x128.lift (ix2 b d) s = ix3 b s d :=
    funext fun a => Fin.ext (by match a with | ⟨0, _⟩ => rfl | ⟨1, _⟩ => rfl | ⟨2, _⟩ => rfl)
  rw [hl]
  refine (mulf_apply _ _ _).trans (congrArg₂ (· * ·) ?_ ?_)
  · exact extractStridedSlice_apply _ _ _ _ (ix3 b s (⟨128 + d.val, by omega⟩ : Fin 256)) (fun a => match a with
      | ⟨0, _⟩ => by show b.val = 0 + b.val; omega
      | ⟨1, _⟩ => by show s.val = 0 + s.val; omega
      | ⟨2, _⟩ => by show 128 + d.val = 128 + d.val; rfl)
  · refine (broadcastTo_apply _ _ _ (ix3 b s (0 : Fin 1)) (fun a => match a with
      | ⟨0, _⟩ => by show b.val = if (32 : Nat) = 1 then 0 else b.val; rw [if_neg (by decide)]
      | ⟨1, _⟩ => by show s.val = if (200 : Nat) = 1 then 0 else s.val; rw [if_neg (by decide)]
      | ⟨2, _⟩ => by show 0 = if (1 : Nat) = 1 then 0 else d.val; rw [if_pos rfl])).trans ?_
    exact shapeCast_apply _ _ (ix3 b s (0 : Fin 1)) (ix2 b s) (by
      rw [Shape.rowMajor_val_two, Shape.rowMajor_val_three]; show b.val * 200 + s.val = (b.val * 200 + s.val) * 1 + 0; omega)

end Cert.Attention.Block

end
-- ==== Proof.BlockRows.lean ====
/-
  One block of 32 batch rows computes the row specification of each of its rows.

  Row b of a block has its own 200 x 256 tokens and its own query; the fused weights hold the key weights in
  columns 0..127 and the value weights in columns 128..255, the fused bias likewise. With these as the row's data,
  the block's attention weights at (b, s) are the specification's `atten` of row b at token s, and the block's output
  at (b, d) is the specification's `output` of row b at lane d: the score of a token is the query against the key
  lanes of the projection, the output sums the value lanes against the weights.
-/
import proofs.«108167_j8564164788839_2_alg».proof.Proof.BlockProj
import proofs.«108167_j8564164788839_2_alg».proof.Proof.BlockSoftmax
import proofs.«108167_j8564164788839_2_alg».proof.Proof.BlockOutput
import proofs.«108167_j8564164788839_2_alg».proof.Proof.RowSpec

noncomputable section

namespace Cert.Attention.Block

open Cert.KernelIdeal Cert.KernelIdeal.Gen Idealize.ShloMosaic Idealize.ShloMosaic.ValueIdx

/-- Row `b` of a block's tokens. -/
def blkX (x0 : Vec Ideal S32x200x256 .f32) (b : Fin 32) : Fin 200 → Fin 256 → EReal := fun s k => x0 (ix3 b s k)

/-- Row `b`'s query. -/
def blkQ (q : Vec Ideal S32x1x128 .f32) (b : Fin 32) : Fin 128 → EReal := fun d => q (ix3 b 0 d)

/-- The key weights: the first 128 columns of the fused weights. -/
def keyW (w : Vec Ideal S256x256 .f32) : Fin 256 → Fin 128 → EReal := fun k d => w (ix2 k (Fin.castLE (by decide) d))

/-- The value weights: the last 128 columns of the fused weights. -/
def valW (w : Vec Ideal S256x256 .f32) : Fin 256 → Fin 128 → EReal :=
  fun k d => w (ix2 k (⟨128 + d.val, by have := d.isLt; omega⟩ : Fin 256))

/-- The key bias: the first 128 entries of the fused bias. -/
def keyB (bb : Vec Ideal S256 .f32) : Fin 128 → EReal := fun d => bb (ix1 (Fin.castLE (by decide) d))

/-- The value bias: the last 128 entries of the fused bias. -/
def valB (bb : Vec Ideal S256 .f32) : Fin 128 → EReal :=
  fun d => bb (ix1 (⟨128 + d.val, by have := d.isLt; omega⟩ : Fin 256))

/-- The key lanes of the block's projection are the specification's projection with the key weights and bias. -/
theorem key_row (x0 : Vec Ideal S32x200x256 .f32) (w : Vec Ideal S256x256 .f32) (bb : Vec Ideal S256 .f32)
    (b : Fin 32) (s : Fin 200) (d : Fin 128) :
    k0_pay1 (F := Ideal) x0 w bb (ix3 b s (Fin.castLE (by decide) d)) = proj (blkX x0 b) (keyW w) (keyB bb) s d :=
  proj_apply x0 w bb b s _

/-- The value lanes of the block's projection are the specification's projection with the value weights and bias. -/
theorem value_row (x0 : Vec Ideal S32x200x256 .f32) (w : Vec Ideal S256x256 .f32) (bb : Vec Ideal S256 .f32)
    (b : Fin 32) (s : Fin 200) (d : Fin 128) :
    k0_pay1 (F := Ideal) x0 w bb (ix3 b s (⟨128 + d.val, by have := d.isLt; omega⟩ : Fin 256))
      = proj (blkX x0 b) (valW w) (valB bb) s d :=
  proj_apply x0 w bb b s _

/-- The block's attention weights at (b, s) are row b's, at token s. -/
theorem atten_row (x0 : Vec Ideal S32x200x256 .f32) (w : Vec Ideal S256x256 .f32) (bb : Vec Ideal S256 .f32)
    (q : Vec Ideal S32x1x128 .f32) (b : Fin 32) (s : Fin 200) :
    k0_pay2 (F := Ideal) x0 w bb q (ix2 b s) = atten (blkX x0 b) (blkQ q b) (keyW w) (keyB bb) s := by
  refine (atten_apply x0 w bb q b s).trans ?_
  show _ = weight (score (blkX x0 b) (blkQ q b) (keyW w) (keyB bb)) s
  refine congrArg (fun f => weight f s) (funext fun s' => ?_)
  show _ = ∑ d : Fin 128, blkQ q b d * proj (blkX x0 b) (keyW w) (keyB bb) s' d
  exact Finset.sum_congr rfl fun d _ => congrArg (q (ix3 b 0 d) * ·) (key_row x0 w bb b s' d)

/-- The block's output at (b, d) is row b's, at lane d. -/
theorem output_row (x0 : Vec Ideal S32x200x256 .f32) (w : Vec Ideal S256x256 .f32) (bb : Vec Ideal S256 .f32)
    (q : Vec Ideal S32x1x128 .f32) (b : Fin 32) (d : Fin 128) :
    k0_pay4 (F := Ideal) x0 w bb q (ix2 b d)
      = output (blkX x0 b) (blkQ q b) (keyW w) (keyB bb) (valW w) (valB bb) d := by
  refine (out_apply x0 w bb q b d).trans ?_
  show _ = ∑ s : Fin 200, proj (blkX x0 b) (valW w) (valB bb) s d * atten (blkX x0 b) (blkQ q b) (keyW w) (keyB bb) s
  exact Finset.sum_congr rfl fun s _ => congrArg₂ (· * ·) (value_row x0 w bb b s d) (atten_row x0 w bb q b s)

end Cert.Attention.Block

end
-- ==== Proof.Tiles.lean ====
/-
  From blocks of 32 batch rows to the whole arrays.

  The grid has 128 points; at point t the kernel is handed rows 32 t … 32 t + 31 of the tokens and of the queries,
  the whole fused weight matrix and the whole fused bias, and writes back rows 32 t … 32 t + 31 of the output and of
  the attention weights. A row of a block is a row of the arrays, so what a point writes back is a block of ONE function
  of the argument arrays — the specification's `outArr` and `attenArr` —, and since the 128 blocks tile the 4096 rows
  each result array ends holding that function.
-/
import proofs.«108167_j8564164788839_2_alg».proof.Proof.Gen.KernelIdeal.Value
import proofs.«108167_j8564164788839_2_alg».proof.Proof.FusedWeights
import proofs.«108167_j8564164788839_2_alg».proof.Proof.BlockRows
import proofs.«108167_j8564164788839_2_alg».proof.Proof.RowSpec
import Idealize.ShloMosaic.Lib.Pipeline.Value

noncomputable section

open Idealize.ShloMosaic Idealize.ShloMosaic.TcCoe Idealize.SL.Sem
open Idealize.ShloMosaic.Pipeline (Dat)

namespace Cert.Attention.Tiles

open Cert.KernelIdeal Cert.KernelIdeal.Gen Cert.KernelIdeal.Value Idealize.ShloMosaic.ValueIdx Cert.Attention Cert.Attention.Block

variable (m : (ℓ : Loc nD τ sig) → Buf (Elt Ideal) ℓ) (ρ : Dev nD → PrngReg)

/-- The block index of every window at every grid point, decided over the 128 points: the token, query, output and
    weight windows move along the batch axis with the point, the fused weights and bias stay whole. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- Batch row `b` of block `t` is row `32 t + b` of the arrays. -/
def rowOf (t : Fin cfg0.N) (b : Fin 32) : Fin 4096 :=
  ⟨32 * t.val + b.val, by have := t.isLt; have hN : cfg0.N = 128 := N_0; have := b.isLt; omega⟩

/-- The token window's block at point `t`: rows `32 t … 32 t + 31` of the token argument. -/
theorem tokens_blk (c : Dev nD) (t : Fin cfg0.N) (b : Fin 32) (s : Fin 200) (k : Fin 256) :
    (iblk m c 0 t : Vec Ideal S32x200x256 .f32) (ix3 b s k)
      = (m ((c : Thread nD τ).loc main_arg0) : S4096x200x256.Idx → EReal) (ix3 (rowOf t b) s k) := by
  obtain ⟨e0, e1, e2, -⟩ := idx_facts t
  unfold iblk
  rw [View.read_apply]
  show V m c main_arg0 _ = _
  rw [V_main_arg0 m c]
  refine congrArg (m ((c : Thread nD τ).loc main_arg0)) (funext fun a => Fin.ext ?_)
  match a with
  | ⟨0, _⟩ => show win0_0.index t (0 : Fin 3) * 32 + 1 * b.val = 32 * t.val + b.val; rw [e0]; omega
  | ⟨1, _⟩ => show win0_0.index t (1 : Fin 3) * 200 + 1 * s.val = s.val; rw [e1]; omega
  | ⟨2, _⟩ => show win0_0.index t (2 : Fin 3) * 256 + 1 * k.val = k.val; rw [e2]; omega

/-- The query window's block at point `t`: rows `32 t … 32 t + 31` of the query argument. -/
theorem queries_blk (c : Dev nD) (t : Fin cfg0.N) (b : Fin 32) (z : Fin 1) (d : Fin 128) :
    (iblk m c 1 t : Vec Ideal S32x1x128 .f32) (ix3 b z d)
      = (m ((c : Thread nD τ).loc main_arg1) : S4096x1x128.Idx → EReal) (ix3 (rowOf t b) z d) := by
  obtain ⟨-, -, -, e0, e1, e2, -⟩ := idx_facts t
  unfold iblk
  rw [View.read_apply]
  show V m c main_arg1 _ = _
  rw [V_main_arg1 m c]
  refine congrArg (m ((c : Thread nD τ).loc main_arg1)) (funext fun a => Fin.ext ?_)
  match a with
  | ⟨0, _⟩ => show win0_1.index t (0 : Fin 3) * 32 + 1 * b.val = 32 * t.val + b.val; rw [e0]; omega
  | ⟨1, _⟩ => show win0_1.index t (1 : Fin 3) * 1 + 1 * z.val = z.val; rw [e1]; omega
  | ⟨2, _⟩ => show win0_1.index t (2 : Fin 3) * 128 + 1 * d.val = d.val; rw [e2]; omega

/-- The weight window's block at every point is the whole fused weight matrix. -/
theorem weights_blk (c : Dev nD) (t : Fin cfg0.N) (k j : Fin 256) :
    (iblk m c 2 t : Vec Ideal S256x256 .f32) (ix2 k j) = (V m c main_v0 : S256x256.Idx → EReal) (ix2 k j) := by
  obtain ⟨-, -, -, -, -, -, e0, e1, -⟩ := idx_facts t
  unfold iblk
  rw [View.read_apply]
  show V m c main_v0 _ = _
  refine congrArg (V m c main_v0) (funext fun a => Fin.ext ?_)
  match a with
  | ⟨0, _⟩ => show win0_2.index t (0 : Fin 2) * 256 + 1 * k.val = k.val; rw [e0]; omega
  | ⟨1, _⟩ => show win0_2.index t (1 : Fin 2) * 256 + 1 * j.val = j.val; rw [e1]; omega

/-- The bias window's block at every point is the whole fused bias. -/
theorem bias_blk (c : Dev nD) (t : Fin cfg0.N) (j : Fin 256) :
    (iblk m c 3 t : Vec Ideal S256 .f32) (ix1 j) = (V m c main_v1 : S256.Idx → EReal) (ix1 j) := by
  obtain ⟨-, -, -, -, -, -, -, -, e0, -⟩ := idx_facts t
  unfold iblk
  rw [View.read_apply]
  show V m c main_v1 _ = _
  refine congrArg (V m c main_v1) (funext fun a => Fin.ext ?_)
  match a with
  | ⟨0, _⟩ => show win0_3.index t (0 : Fin 1) * 256 + 1 * j.val = j.val; rw [e0]; omega

/-! ## A block's row data are the arrays' -/

/-- Row `b` of the token block at point `t` is row `32 t + b` of the token argument. -/
theorem blkX_eq (c : Dev nD) (t : Fin cfg0.N) (b : Fin 32) :
    blkX (iblk m c 0 t) b = rowX (m ((c : Thread nD τ).loc main_arg0)) (rowOf t b) :=
  funext fun s => funext fun k => tokens_blk m c t b s k

/-- Row `b`'s query in the block at point `t` is the query of row `32 t + b`. -/
theorem blkQ_eq (c : Dev nD) (t : Fin cfg0.N) (b : Fin 32) :
    blkQ (iblk m c 1 t) b = rowQ (m ((c : Thread nD τ).loc main_arg1)) (rowOf t b) :=
  funext fun d => queries_blk m c t b 0 d

/-- The key half of the fused weights, as every point finds it, is the key weight argument. -/
theorem keyW_eq (c : Dev nD) (t : Fin cfg0.N) : keyW (iblk m c 2 t) = mat (m ((c : Thread nD τ).loc main_arg2)) :=
  funext fun k => funext fun d => (weights_blk m c t k _).trans (fusedW_key m c k d)

/-- The value half of the fused weights is the value weight argument. -/
theorem valW_eq (c : Dev nD) (t : Fin cfg0.N) : valW (iblk m c 2 t) = mat (m ((c : Thread nD τ).loc main_arg4)) :=
  funext fun k => funext fun d => (weights_blk m c t k _).trans (fusedW_value m c k d)

/-- The key half of the fused bias is the key bias argument. -/
theorem keyB_eq (c : Dev nD) (t : Fin cfg0.N) : keyB (iblk m c 3 t) = vec (m ((c : Thread nD τ).loc main_arg3)) :=
  funext fun d => (bias_blk m c t _).trans (fusedB_key m c d)

/-- The value half of the fused bias is the value bias argument. -/
theorem valB_eq (c : Dev nD) (t : Fin cfg0.N) : valB (iblk m c 3 t) = vec (m ((c : Thread nD τ).loc main_arg5)) :=
  funext fun d => (bias_blk m c t _).trans (fusedB_value m c d)

/-! ## The two result arrays -/

/-- Every store and load of the body is at offset zero of its whole buffer. -/
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The attention weights of the argument arrays. -/
abbrev attenOf (c : Dev nD) : S4096x1x200.Idx → EReal :=
  attenArr (m ((c : Thread nD τ).loc main_arg0)) (m ((c : Thread nD τ).loc main_arg1))
    (m ((c : Thread nD τ).loc main_arg2)) (m ((c : Thread nD τ).loc main_arg3))

/-- The outputs of the argument arrays. -/
abbrev outOf (c : Dev nD) : S4096x128.Idx → EReal :=
  outArr (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))

/-- What point `t` writes back to the attention-weights array is block `t` of the attention weights of the arguments:
    entry (b, 0, s) of the block is the weight of token s in row `32 t + b`. -/
theorem flushed5_eq (c : Dev nD) (t : Fin cfg0.N) :
    (dats m 0 c).flushed 5 t = ((cfg0.win 5).blk t).view.read (Elt Ideal) (attenOf m c) := by
  obtain ⟨-, -, -, -, -, -, -, -, -, -, -, e0, e1, e2⟩ := idx_facts t
  rw [Value.flushed5]
  unfold out0_5
  rw [View.canon_unit_zero hz3]
  simp only [View.ld_unit_zero (S := S32x200x256) hz3, View.ld_unit_zero (S := S256x256) hz2,
    View.ld_unit_zero (S := S256) hz1, View.ld_unit_zero (S := S32x1x128) hz3]
  funext y
  show k0_pay3 (F := Ideal) (iblk m c 0 t) (iblk m c 2 t) (iblk m c 3 t) (iblk m c 1 t) y
      = attenOf m c (((cfg0.win 5).blk t).view.emb y)
  obtain ⟨b, z, s, rfl⟩ : ∃ (b : Fin 32) (z : Fin 1) (s : Fin 200), y = ix3 b z s := ⟨y 0, y 1, y 2, eq_ix3 y⟩
  have hz := z.isLt
  unfold k0_pay3
  refine (shapeCast_apply _ _ (ix3 b z s) (ix2 b s) (by
    rw [Shape.rowMajor_val_two, Shape.rowMajor_val_three]
    show b.val * 200 + s.val = (b.val * 1 + z.val) * 200 + s.val; omega)).trans ?_
  refine (atten_row (iblk m c 0 t) (iblk m c 2 t) (iblk m c 3 t) (iblk m c 1 t) b s).trans ?_
  rw [blkX_eq m c t b, blkQ_eq m c t b, keyW_eq m c t, keyB_eq m c t]
  have h0 : (((cfg0.win 5).blk t).view.emb (ix3 b z s)) 0 = rowOf t b :=
    Fin.ext (by show win0_5.index t (0 : Fin 3) * 32 + 1 * b.val = 32 * t.val + b.val; rw [e0]; omega)
  have h2 : (((cfg0.win 5).blk t).view.emb (ix3 b z s)) 2 = s :=
    Fin.ext (by show win0_5.index t (2 : Fin 3) * 200 + 1 * s.val = s.val; rw [e2]; omega)
  show _ = atten (rowX _ ((((cfg0.win 5).blk t).view.emb (ix3 b z s)) 0)) (rowQ _ ((((cfg0.win 5).blk t).view.emb (ix3 b z s)) 0)) _ _
      ((((cfg0.win 5).blk t).view.emb (ix3 b z s)) 2)
  rw [h0, h2]

/-- What point `t` writes back to the output array is block `t` of the outputs of the arguments: entry (b, d) of the
    block is lane d of the output of row `32 t + b`. -/
theorem flushed4_eq (c : Dev nD) (t : Fin cfg0.N) :
    (dats m 0 c).flushed 4 t = ((cfg0.win 4).blk t).view.read (Elt Ideal) (outOf m c) := by
  obtain ⟨-, -, -, -, -, -, -, -, -, e0, e1, -⟩ := idx_facts t
  rw [Value.flushed4]
  unfold out0_4
  rw [View.canon_unit_zero hz2]
  simp only [View.ld_unit_zero (S := S32x200x256) hz3, View.ld_unit_zero (S := S256x256) hz2,
    View.ld_unit_zero (S := S256) hz1, View.ld_unit_zero (S := S32x1x128) hz3]
  funext y
  show k0_pay4 (F := Ideal) (iblk m c 0 t) (iblk m c 2 t) (iblk m c 3 t) (iblk m c 1 t) y
      = outOf m c (((cfg0.win 4).blk t).view.emb y)
  obtain ⟨b, d, rfl⟩ : ∃ (b : Fin 32) (d : Fin 128), y = ix2 b d := ⟨y 0, y 1, eq_ix2 y⟩
  refine (output_row (iblk m c 0 t) (iblk m c 2 t) (iblk m c 3 t) (iblk m c 1 t) b d).trans ?_
  rw [blkX_eq m c t b, blkQ_eq m c t b, keyW_eq m c t, keyB_eq m c t, valW_eq m c t, valB_eq m c t]
  have h0 : (((cfg0.win 4).blk t).view.emb (ix2 b d)) 0 = rowOf t b :=
    Fin.ext (by show win0_4.index t (0 : Fin 2) * 32 + 1 * b.val = 32 * t.val + b.val; rw [e0]; omega)
  have h1 : (((cfg0.win 4).blk t).view.emb (ix2 b d)) 1 = d :=
    Fin.ext (by show win0_4.index t (1 : Fin 2) * 128 + 1 * d.val = d.val; rw [e1]; omega)
  show _ = output (rowX _ ((((cfg0.win 4).blk t).view.emb (ix2 b d)) 0)) (rowQ _ ((((cfg0.win 4).blk t).view.emb (ix2 b d)) 0)) _ _ _ _
      ((((cfg0.win 4).blk t).view.emb (ix2 b d)) 1)
  rw [h0, h1]

/-- An index of the attention-weights array is in point `t`'s block iff each coordinate is in the block's range on its axis. -/
theorem mem_blk5 (t : Fin cfg0.N) (i : S4096x1x200.Idx) :
    i ∈ ((cfg0.win 5).blk t).view.set ↔ ∀ a : Fin 3, win0_5.index t a * S32x1x200.size a ≤ (i a).val
      ∧ (i a).val < win0_5.index t a * S32x1x200.size a + S32x1x200.size a := by
  show i ∈ ((View.whole main_v2_1).slice (win0_5.rect t)).set ↔ _
  rw [View.set_slice_whole, Rect.mem_set_unit]
  exact Iff.rfl

/-- The same for the output array. -/
theorem mem_blk4 (t : Fin cfg0.N) (i : S4096x128.Idx) :
    i ∈ ((cfg0.win 4).blk t).view.set ↔ ∀ a : Fin 2, win0_4.index t a * S32x128.size a ≤ (i a).val
      ∧ (i a).val < win0_4.index t a * S32x128.size a + S32x128.size a := by
  show i ∈ ((View.whole main_v2_0).slice (win0_4.rect t)).set ↔ _
  rw [View.set_slice_whole, Rect.mem_set_unit]
  exact Iff.rfl

/-- Every index of the attention-weights array lies in the block of the point that holds its batch row: point `row / 32`. -/
theorem cover5 (i : S4096x1x200.Idx) :
    ∃ t : Fin cfg0.N, (cfg0.win 5).flush t = true ∧ i ∈ ((cfg0.win 5).blk t).view.set := by
  have hi0 : (i 0).val < 4096 := (i 0).isLt
  have hi1 : (i 1).val < 1 := (i 1).isLt
  have hi2 : (i 2).val < 200 := (i 2).isLt
  have hN : cfg0.N = 128 := N_0
  refine ⟨⟨(i 0).val / 32, by rw [hN]; omega⟩, flush0_5 _, ?_⟩
  obtain ⟨-, -, -, -, -, -, -, -, -, -, -, e0, e1, e2⟩ := idx_facts ⟨(i 0).val / 32, by rw [hN]; omega⟩
  rw [mem_blk5]
  intro a
  match a with
  | ⟨0, _⟩ =>
    show win0_5.index _ (0 : Fin 3) * 32 ≤ (i 0).val ∧ (i 0).val < win0_5.index _ (0 : Fin 3) * 32 + 32
    rw [e0]; show (i 0).val / 32 * 32 ≤ (i 0).val ∧ (i 0).val < (i 0).val / 32 * 32 + 32; omega
  | ⟨1, _⟩ =>
    show win0_5.index _ (1 : Fin 3) * 1 ≤ (i 1).val ∧ (i 1).val < win0_5.index _ (1 : Fin 3) * 1 + 1
    rw [e1]; omega
  | ⟨2, _⟩ =>
    show win0_5.index _ (2 : Fin 3) * 200 ≤ (i 2).val ∧ (i 2).val < win0_5.index _ (2 : Fin 3) * 200 + 200
    rw [e2]; omega

/-- Every index of the output array lies in the block of point `row / 32`. -/
theorem cover4 (i : S4096x128.Idx) :
    ∃ t : Fin cfg0.N, (cfg0.win 4).flush t = true ∧ i ∈ ((cfg0.win 4).blk t).view.set := by
  have hi0 : (i 0).val < 4096 := (i 0).isLt
  have hi1 : (i 1).val < 128 := (i 1).isLt
  have hN : cfg0.N = 128 := N_0
  refine ⟨⟨(i 0).val / 32, by rw [hN]; omega⟩, flush0_4 _, ?_⟩
  obtain ⟨-, -, -, -, -, -, -, -, -, e0, e1, -⟩ := idx_facts ⟨(i 0).val / 32, by rw [hN]; omega⟩
  rw [mem_blk4]
  intro a
  match a with
  | ⟨0, _⟩ =>
    show win0_4.index _ (0 : Fin 2) * 32 ≤ (i 0).val ∧ (i 0).val < win0_4.index _ (0 : Fin 2) * 32 + 32
    rw [e0]; show (i 0).val / 32 * 32 ≤ (i 0).val ∧ (i 0).val < (i 0).val / 32 * 32 + 32; omega
  | ⟨1, _⟩ =>
    show win0_4.index _ (1 : Fin 2) * 128 ≤ (i 1).val ∧ (i 1).val < win0_4.index _ (1 : Fin 2) * 128 + 128
    rw [e1]; omega

/-- After the run the attention-weights array is the attention weights of the argument arrays. -/
theorem final5 (c : Dev nD) : (dats m 0 c).arrAt 5 cfg0.N = attenOf m c :=
  (dats m 0 c).arrAt_eq_of_cover 5 (attenOf m c) (fun t _ => flushed5_eq m c t) cover5

/-- After the run the output array is the outputs of the argument arrays. -/
theorem final4 (c : Dev nD) : (dats m 0 c).arrAt 4 cfg0.N = outOf m c :=
  (dats m 0 c).arrAt_eq_of_cover 4 (outOf m c) (fun t _ => flushed4_eq m c t) cover4

/-- The kernel's run, read: both result arrays at the specification's functions of the arguments, the arguments unchanged. -/
theorem run : θ_run defs (onTc (τ := τ) (main (F := Ideal))) ⟨m, fun _ => 0, ρ⟩ fun r => ∀ c : Dev nD,
      r.2.mem ((c : Thread nD τ).loc main_v2_0) = outOf m c
      ∧ r.2.mem ((c : Thread nD τ).loc main_v2_1) = attenOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final4 m c), (h c).2.1.trans (final5 m c), (h c).2.2⟩)
    (Value.run_blocks m ρ)

end Cert.Attention.Tiles

end
-- ==== Proof.RefIsSpec.lean ====
/-
  The reference program, read at the extended reals, computes the row specification.

  The reference projects every token to a key and to a value (a contraction over the 256 input features plus a
  bias), scores each token against the row's query (a contraction over the 128 projected features), takes the
  softmax of the 200 scores of a row against their maximum, multiplies by a fixed scale, and sums the values
  weighted by the result. Below, each stage of the reference is read at an index and identified with the
  specification's row function at the coordinates of that index: an entry of a stage depends only on the
  batch row the index lies in (its first coordinate) and on the token or feature its other coordinates name.
  No finiteness is needed: both sides are the same sums, maxima, exponentials, quotients and products.
-/
import proofs.«108167_j8564164788839_2_alg».proof.Proof.Gen.ReferenceIdeal.Read
import proofs.«108167_j8564164788839_2_alg».proof.Proof.RowSpec
import Idealize.ShloMosaic.PureOps.Ideal.Laws

noncomputable section

namespace Cert.Attention.Ref

open Cert.ReferenceIdeal Cert.ReferenceIdeal.Gen Cert.ReferenceIdeal.Read Idealize.ShloMosaic
  Idealize.ShloMosaic.ValueIdx Idealize.ShloMosaic.StableHlo Cert.Attention

variable (x0 : (⟨S4096x200x256, .f32⟩ : BufTy).Contents (Elt Ideal))
  (x1 : (⟨S4096x1x128, .f32⟩ : BufTy).Contents (Elt Ideal))
  (x2 : (⟨S256x128, .f32⟩ : BufTy).Contents (Elt Ideal)) (x3 : (⟨S128, .f32⟩ : BufTy).Contents (Elt Ideal))
  (x4 : (⟨S256x128, .f32⟩ : BufTy).Contents (Elt Ideal)) (x5 : (⟨S128, .f32⟩ : BufTy).Contents (Elt Ideal))

/-- The key projection: entry (p, s, d) is the projection of row p's token s on feature d, with the key weights
    and bias. It depends on row p of the tokens only. -/
theorem key_apply (i : S4096x200x128.Idx) :
    val_main_v3 (F := Ideal) x0 x2 x3 i = proj (rowX x0 (i 0)) (mat x2) (vec x3) (i 1) (i 2) := by
  rw [val_main_v3_apply, val_main_v0_apply, val_main_v2_apply, val_main_v1_apply]
  simp only [Ideal.addf_def]
  unfold proj rowX mat vec
  refine congrArg₂ (· + ·) (Finset.sum_congr rfl fun k _ => congrArg₂ (· * ·) (congrArg x0 ?_) (congrArg x2 ?_)) (congrArg x3 ?_)
  · exact funext fun a => by match a with | ⟨0, _⟩ => rfl | ⟨1, _⟩ => rfl | ⟨2, _⟩ => rfl
  · exact funext fun a => by match a with | ⟨0, _⟩ => rfl | ⟨1, _⟩ => rfl
  · exact funext fun a => by match a with | ⟨0, _⟩ => rfl

/-- The value projection: the same projection with the value weights and bias. -/
theorem value_apply (i : S4096x200x128.Idx) :
    val_main_v7 (F := Ideal) x0 x4 x5 i = proj (rowX x0 (i 0)) (mat x4) (vec x5) (i 1) (i 2) := by
  rw [val_main_v7_apply, val_main_v4_apply, val_main_v6_apply, val_main_v5_apply]
  simp only [Ideal.addf_def]
  unfold proj rowX mat vec
  refine congrArg₂ (· + ·) (Finset.sum_congr rfl fun k _ => congrArg₂ (· * ·) (congrArg x0 ?_) (congrArg x4 ?_)) (congrArg x5 ?_)
  · exact funext fun a => by match a with | ⟨0, _⟩ => rfl | ⟨1, _⟩ => rfl | ⟨2, _⟩ => rfl
  · exact funext fun a => by match a with | ⟨0, _⟩ => rfl | ⟨1, _⟩ => rfl
  · exact funext fun a => by match a with | ⟨0, _⟩ => rfl

/-- The scores: entry (p, 0, s) is the inner product of row p's query with the key projection of its token s.
    The middle axis has one entry, so the query is read at middle coordinate 0. -/
theorem score_apply (i : S4096x1x200.Idx) :
    val_main_v8 (F := Ideal) x0 x1 x2 x3 i = score (rowX x0 (i 0)) (rowQ x1 (i 0)) (mat x2) (vec x3) (i 2) := by
  rw [val_main_v8_apply]
  unfold score
  refine Finset.sum_congr rfl fun k _ => ?_
  rw [key_apply]
  refine congrArg₂ (· * ·) ?_ rfl
  unfold rowQ
  refine congrArg x1 (funext fun a => ?_)
  match a with
  | ⟨0, _⟩ => rfl
  | ⟨1, _⟩ => exact Subsingleton.elim (α := Fin 1) _ _
  | ⟨2, _⟩ => rfl

/-- The largest score of a row as the program takes it: the maximum folded over the 200 tokens from minus infinity,
    then compared once more with minus infinity, which changes nothing. It depends on the row only. -/
theorem top_apply (i : S4096x1.Idx) :
    val_main_v11 (F := Ideal) x0 x1 x2 x3 i = top (score (rowX x0 (i 0)) (rowQ x1 (i 0)) (mat x2) (vec x3)) := by
  have hr : S4096x1x200.Reduces [2] S4096x1 := by decide
  rw [val_main_v11_apply, val_main_v10_apply, val_main_cst_0_apply]
  unfold val_main_v9
  rw [Host.reduce_eq_fold_single FloatOps.maximumf _ _ reducesTo_S4096x1x200_S4096x1_d2 hr h_S_ i, val_main_cst_apply]
  have hf : (val_main_v8 (F := Ideal) x0 x1 x2 x3 ∘ hr.lift i)
      = score (rowX x0 (i 0)) (rowQ x1 (i 0)) (mat x2) (vec x3) := by
    funext k
    rw [Function.comp_apply, score_apply]
    rfl
  rw [hf]
  exact max_least_top _

/-- The exponentials: entry (p, 0, s) is the exponential of the distance of token s's score below the row's largest
    score (the largest score is broadcast back over the tokens). -/
theorem lift_apply (i : S4096x1x200.Idx) :
    val_main_v15 (F := Ideal) x0 x1 x2 x3 i
      = lift (score (rowX x0 (i 0)) (rowQ x1 (i 0)) (mat x2) (vec x3)) (i 2) := by
  rw [val_main_v15_apply, val_main_v14_apply, val_main_v13_apply, val_main_v12_apply, top_apply, score_apply]
  simp only [Ideal.hostUnary_exp_def, Ideal.subf_def]
  rfl

/-- The sum of a row's exponentials: the float sum starts from the zero word, which adds nothing. -/
theorem total_apply (i : S4096x1.Idx) :
    val_main_v16 (F := Ideal) x0 x1 x2 x3 i
      = ∑ s : Fin 200, lift (score (rowX x0 (i 0)) (rowQ x1 (i 0)) (mat x2) (vec x3)) s := by
  rw [val_main_v16_apply, val_main_cst_1_apply]
  simp only [Ideal.ofBits_def, Ideal.ofBits_zero_f32, zero_add]
  refine Finset.sum_congr rfl fun k _ => ?_
  rw [lift_apply]
  rfl

/-- The weights: entry (p, 0, s) is token s's exponential divided by the row's sum of exponentials (broadcast back
    over the tokens), times the scale. -/
theorem weight_apply (i : S4096x1x200.Idx) :
    val_main_v21 (F := Ideal) x0 x1 x2 x3 i
      = weight (score (rowX x0 (i 0)) (rowQ x1 (i 0)) (mat x2) (vec x3)) (i 2) := by
  rw [val_main_v21_apply, val_main_v19_apply, val_main_v20_apply, val_main_cst_2_apply, val_main_v18_apply,
    val_main_v17_apply, total_apply, lift_apply]
  simp only [Ideal.mulf_def, Ideal.hostDivf_def, Ideal.ofBits_def]
  rfl

/-- The reference's attention weights are the specification's. -/
theorem atten_ref (x0 : (⟨S4096x200x256, .f32⟩ : BufTy).Contents (Elt Ideal)) (x1 : (⟨S4096x1x128, .f32⟩ : BufTy).Contents (Elt Ideal)) (x2 : (⟨S256x128, .f32⟩ : BufTy).Contents (Elt Ideal)) (x3 : (⟨S128, .f32⟩ : BufTy).Contents (Elt Ideal)) :
    Cert.ReferenceIdeal.Read.val_main_v21 (F := Ideal) x0 x1 x2 x3 = Cert.Attention.attenArr x0 x1 x2 x3 := by
  funext i
  rw [weight_apply]
  rfl

/-- The weighted values: entry (p, s, d) is the value projection at (s, d) times token s's weight (the weights are
    transposed to [4096, 200, 1] and broadcast over the 128 features). -/
theorem term_apply (i : S4096x200x128.Idx) :
    val_main_v24 (F := Ideal) x0 x1 x2 x3 x4 x5 i
      = proj (rowX x0 (i 0)) (mat x4) (vec x5) (i 1) (i 2)
        * atten (rowX x0 (i 0)) (rowQ x1 (i 0)) (mat x2) (vec x3) (i 1) := by
  rw [val_main_v24_apply, value_apply, val_main_v23_apply, val_main_v22_apply, weight_apply]
  simp only [Ideal.mulf_def]
  rfl

/-- The reference's output is the specification's: entry (p, d) sums the weighted values over the tokens, from the
    zero word. -/
theorem out_ref (x0 : (⟨S4096x200x256, .f32⟩ : BufTy).Contents (Elt Ideal)) (x1 : (⟨S4096x1x128, .f32⟩ : BufTy).Contents (Elt Ideal)) (x2 : (⟨S256x128, .f32⟩ : BufTy).Contents (Elt Ideal)) (x3 : (⟨S128, .f32⟩ : BufTy).Contents (Elt Ideal)) (x4 : (⟨S256x128, .f32⟩ : BufTy).Contents (Elt Ideal)) (x5 : (⟨S128, .f32⟩ : BufTy).Contents (Elt Ideal)) :
    Cert.ReferenceIdeal.Read.val_main_v25 (F := Ideal) x0 x1 x2 x3 x4 x5 = Cert.Attention.outArr x0 x1 x2 x3 x4 x5 := by
  funext i
  rw [val_main_v25_apply, val_main_cst_3_apply]
  simp only [Ideal.ofBits_def, Ideal.ofBits_zero_f32, zero_add]
  unfold outArr output
  refine Finset.sum_congr rfl fun k _ => ?_
  rw [term_apply]
  rfl

end Cert.Attention.Ref

end
-- ==== Proof.lean ====
/-
  The proof of `Cert.Claim`: single-query attention over 4096 batch rows, the kernel against its reference, on the
  extended reals.

  Both programs compute, for every batch row, a key and a value projection of the row's 200 tokens (an inner product
  over 256 features plus a bias), the scores of the tokens against the row's query, the softmax of the scores taken
  against their maximum and multiplied by one fixed f32 scale, and the sum of the values weighted by the result.
  The kernel does this 32 rows at a time, with the key and value weights laid side by side into one matrix so that
  one matrix product yields both projections; the reference does it for all rows at once with two products. At the
  ideal instance the two are the same sums, maxima, exponentials, quotients and products, entry by entry: a change
  of float format is the identity, a matrix product into the zero word is the plain sum, the order and tiling of a
  sum do not matter, and the scale is the same word in both programs. No finiteness of the inputs is used.

  Proof/RowSpec.lean states the computation of one batch row (the specification); Proof/RefIsSpec.lean reads the
  reference as it; Proof/BlockProj.lean, Proof/BlockSoftmax.lean, Proof/BlockOutput.lean and Proof/BlockRows.lean read the
  kernel's body, on one block of 32 rows, as it; Proof/FusedWeights.lean reads the fused weights; Proof/Tiles.lean
  takes the blocks to the whole arrays. The three frames are the generated ones, and the idealization rewrote
  nothing, so its conjunct is trivial.
-/
import proofs.«108167_j8564164788839_2_alg».proof.Defs
import proofs.«108167_j8564164788839_2_alg».proof.Proof.Gen.Kernel
import proofs.«108167_j8564164788839_2_alg».proof.Proof.Gen.Kernel.Frame
import proofs.«108167_j8564164788839_2_alg».proof.Proof.Gen.KernelIdeal
import proofs.«108167_j8564164788839_2_alg».proof.Proof.Gen.KernelIdeal.Frame
import proofs.«108167_j8564164788839_2_alg».proof.Proof.Gen.ReferenceIdeal
import proofs.«108167_j8564164788839_2_alg».proof.Proof.Gen.Pre_finite_inputs
import proofs.«108167_j8564164788839_2_alg».proof.Proof.Gen.KernelIdeal.Value
import proofs.«108167_j8564164788839_2_alg».proof.Proof.Gen.ReferenceIdeal.Run
import proofs.«108167_j8564164788839_2_alg».proof.Proof.Gen.ReferenceIdeal.Read
import proofs.«108167_j8564164788839_2_alg».proof.Proof.Tiles
import proofs.«108167_j8564164788839_2_alg».proof.Proof.RefIsSpec
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the six arguments both programs end with the outputs and the attention weights of
    those arguments: the kernel block by block, the reference stage by stage. -/
theorem algebraic : Cert.algebraic_KernelIdeal_ReferenceIdeal := by
  intro m ρ m' ρ' _ hagree
  refine ⟨fun c => Cert.Attention.Tiles.outOf m c, fun c => Cert.Attention.Tiles.attenOf m c,
    Cert.Attention.Tiles.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v25_eq, Cert.Attention.Ref.out_ref, (hagree c).1, (hagree c).2.1,
      (hagree c).2.2.1, (hagree c).2.2.2.1, (hagree c).2.2.2.2.1, (hagree c).2.2.2.2.2]
  · rw [Cert.ReferenceIdeal.Read.val_main_v21_eq, Cert.Attention.Ref.atten_ref, (hagree c).1, (hagree c).2.1,
      (hagree c).2.2.1, (hagree c).2.2.2.1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
